-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 46
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S128x128, .f32⟩
  | .hbm, ⟨26, _⟩ => ⟨S128x128, .f32⟩
  | .hbm, ⟨27, _⟩ => ⟨S1x128, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S128x128, .f32⟩
  | .hbm, ⟨43, _⟩ => ⟨S128x128, .f32⟩
  | .hbm, ⟨44, _⟩ => ⟨S1x128, .f32⟩
  | .hbm, ⟨45, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 57
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S128x128, .f32⟩
  | .hbm, ⟨26, _⟩ => ⟨S100000x128, .f32⟩
  | .hbm, ⟨27, _⟩ => ⟨S128x128, .f32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S128x128, .f32⟩
  | .hbm, ⟨50, _⟩ => ⟨S100000x128, .f32⟩
  | .hbm, ⟨51, _⟩ => ⟨S128x128, .f32⟩
  | .hbm, ⟨52, _⟩ => ⟨S100000x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run, with its result buffer read at the end.

  The program is four segments in a row: the host operations that build the first aggregate, the transposed weights
  and the bias row; the first kernel; the host operations that build the second aggregate and the second layer's
  weights and bias; the second kernel. Each segment takes the contents of every buffer that outlives a kernel from
  one boundary to the next (`W0` at launch, then `W1`, `W2`, `W3`, `W4`), so from any launch memory every weakly fair
  execution terminates, and in the final memory every such buffer holds its `W4` contents: the argument buffers what
  they were launched with, and the result buffer the last boundary's contents at it, which the next module computes.
-/
import proofs.«174940_j63934883168987_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any launch memory with zero counters every weakly fair execution of the program terminates without a fault;
    the final memory holds, at the result buffer, the last boundary's contents, and at every argument buffer what it
    was launched with. -/
theorem run_main : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Whole

end
-- ==== Proof.LibGraphConv.lean ====
/-
  The dense half of a graph convolution on the extended reals, for any extents.

  A graph-convolution layer first adds up, for every node, the feature rows of its in-neighbours (the aggregate `a`)
  and then combines that aggregate with the node's own row `h`: entry (p, q) of the result is the dot product of row p
  of `a` with column q of one weight matrix, plus the dot product of row p of `h` with column q of a second weight
  matrix, plus a bias at q (stored as a 1 × `M` row). Only this combine is stated here; it does not depend on how the
  aggregate was made. The rectifier keeps the larger of an entry and the number the zero word of a 32-bit float denotes.

  Nothing here depends on a program. A block of rows and the whole array are the same definition at two numbers of
  rows, and the fact that joins them is that an entry of the combine depends on one row of each of `a` and `h`, one
  column of each weight matrix and one bias entry (`combine_congr`): a block of rows of the combine of two arrays is
  the combine of the same block of rows of the arrays.
-/
import Idealize.ShloMosaic.Lib.ValueIdx
import Idealize.ShloMosaic.PureOps.Ideal

noncomputable section

open scoped BigOperators

namespace Cert.GraphConv

open Idealize.ShloMosaic Idealize.ShloMosaic.ValueIdx

/-- The combine `a · wr + h · wo + b`: entry (p, q) is `(∑ k, a (p, k) · wr (k, q) + ∑ k, h (p, k) · wo (k, q)) + b (0, q)`,
    for `n` × `K` matrices `a` and `h`, `K` × `M` matrices `wr` and `wo` and a bias row `b` stored as a 1 × `M` matrix. The
    two products are added first and the bias last. -/
def combine {n K M : Nat} (a h : (⟨2, ![n, K]⟩ : Shape).Idx → EReal) (wr wo : (⟨2, ![K, M]⟩ : Shape).Idx → EReal)
    (b : (⟨2, ![1, M]⟩ : Shape).Idx → EReal) : (⟨2, ![n, M]⟩ : Shape).Idx → EReal :=
  fun i => ((∑ k : Fin K, a (ix2 (i 0) k) * wr (ix2 k (i 1))) + ∑ k : Fin K, h (ix2 (i 0) k) * wo (ix2 k (i 1)))
    + b (ix2 (0 : Fin 1) (i 1))

/-- The rectifier of a matrix, entry by entry: the larger of the entry and the value of the 32-bit zero word. -/
def rectify {n M : Nat} (x : (⟨2, ![n, M]⟩ : Shape).Idx → EReal) : (⟨2, ![n, M]⟩ : Shape).Idx → EReal :=
  fun i => max (x i) (Ideal.ofBits .f32 0x00000000#32)

/-- The combine at explicit coordinates. -/
theorem combine_apply {n K M : Nat} (a h : (⟨2, ![n, K]⟩ : Shape).Idx → EReal) (wr wo : (⟨2, ![K, M]⟩ : Shape).Idx → EReal)
    (b : (⟨2, ![1, M]⟩ : Shape).Idx → EReal) (p : Fin n) (q : Fin M) :
    combine a h wr wo b (ix2 p q)
      = ((∑ k : Fin K, a (ix2 p k) * wr (ix2 k q)) + ∑ k : Fin K, h (ix2 p k) * wo (ix2 k q)) + b (ix2 (0 : Fin 1) q) := rfl

/-- The rectifier at an index. -/
theorem rectify_apply {n M : Nat} (x : (⟨2, ![n, M]⟩ : Shape).Idx → EReal) (i : (⟨2, ![n, M]⟩ : Shape).Idx) :
    rectify x i = max (x i) (Ideal.ofBits .f32 0x00000000#32) := rfl

/-- An entry of a combine depends on one row of the aggregate, the same row of the node features, one column of each
    weight matrix and one bias entry: two combines, of matrices with any numbers of rows, agree at entries `i'` and `i`
    as soon as rows `i' 0` of one pair of inputs are rows `i 0` of the other pair, columns `i' 1` of one pair of weight
    matrices are columns `i 1` of the other, and the bias entries agree. -/
theorem combine_congr {n n' K M : Nat} (a h : (⟨2, ![n, K]⟩ : Shape).Idx → EReal) (wr wo : (⟨2, ![K, M]⟩ : Shape).Idx → EReal)
    (b : (⟨2, ![1, M]⟩ : Shape).Idx → EReal) (a' h' : (⟨2, ![n', K]⟩ : Shape).Idx → EReal)
    (wr' wo' : (⟨2, ![K, M]⟩ : Shape).Idx → EReal) (b' : (⟨2, ![1, M]⟩ : Shape).Idx → EReal)
    (i : (⟨2, ![n, M]⟩ : Shape).Idx) (i' : (⟨2, ![n', M]⟩ : Shape).Idx)
    (harow : ∀ k : Fin K, a' (ix2 (i' 0) k) = a (ix2 (i 0) k))
    (hhrow : ∀ k : Fin K, h' (ix2 (i' 0) k) = h (ix2 (i 0) k))
    (hrcol : ∀ k : Fin K, wr' (ix2 k (i' 1)) = wr (ix2 k (i 1)))
    (hocol : ∀ k : Fin K, wo' (ix2 k (i' 1)) = wo (ix2 k (i 1)))
    (hb : b' (ix2 (0 : Fin 1) (i' 1)) = b (ix2 (0 : Fin 1) (i 1))) :
    combine a' h' wr' wo' b' i' = combine a h wr wo b i := by
  have e1 : (∑ k : Fin K, a' (ix2 (i' 0) k) * wr' (ix2 k (i' 1))) = ∑ k : Fin K, a (ix2 (i 0) k) * wr (ix2 k (i 1)) :=
    Finset.sum_congr rfl fun k _ => by rw [harow k, hrcol k]
  have e2 : (∑ k : Fin K, h' (ix2 (i' 0) k) * wo' (ix2 k (i' 1))) = ∑ k : Fin K, h (ix2 (i 0) k) * wo (ix2 k (i 1)) :=
    Finset.sum_congr rfl fun k _ => by rw [hhrow k, hocol k]
  unfold combine
  rw [hb, e1, e2]

/-- The rectifier looks at one entry: rectified matrices agree where the matrices do. -/
theorem rectify_congr {n n' M : Nat} (x : (⟨2, ![n, M]⟩ : Shape).Idx → EReal) (x' : (⟨2, ![n', M]⟩ : Shape).Idx → EReal)
    (i : (⟨2, ![n, M]⟩ : Shape).Idx) (i' : (⟨2, ![n', M]⟩ : Shape).Idx) (hx : x' i' = x i) : rectify x' i' = rectify x i := by
  unfold rectify; rw [hx]

end Cert.GraphConv

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.Payload.lean ====
/-
  What one grid point of each kernel computes, entry by entry, on the extended reals.

  Both kernels take a block of 5000 rows of the aggregate, the same 5000 rows of the node features, two 128 × 128
  weight matrices and a 1 × 128 bias row. They narrow the four matrices to a 16-bit format (the identity on the
  extended reals), multiply the aggregate block by the first weight matrix and the feature block by the second, each
  product started from a zero accumulator, add the two products, add the bias row spread over the 5000 rows, and —
  the first kernel only — keep the larger of the result and zero. Entry (p, q) of the block is therefore the combine
  of the block's rows at (p, q), rectified in the first kernel.
-/
import proofs.«174940_j63934883168987_2_alg».proof.Proof.Gen.KernelIdeal.Skeleton
import proofs.«174940_j63934883168987_2_alg».proof.Proof.LibGraphConv
import proofs.«174940_j63934883168987_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.GraphConv

/-! ## The block product's dimension numbers: which operand entries meet at output entry `i` and contraction position `q` -/

theorem mm_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem mm_l1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem mm_r0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem mm_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A block product from the zero accumulator, at entry (p, q): the dot product of row p of the left block with
    column q of the right matrix. -/
theorem mm_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, (l (ix2 p k) : EReal) * (r (ix2 k q) : EReal) :=
  Cert.PlainDot.matmul_zero_apply dot_S5000x128_S128x128_S5000x128_1_0_0_1_n_n rfl rfl mm_l0 mm_l1 mm_r0 mm_r1 none l r p q

/-- The bias row spread over the block's rows reads, at (p, q), the row's entry q. -/
theorem bias_apply (b : Vec Ideal S1x128 .f32) (p : Fin 5000) (q : Fin 128) :
    broadcastTo S5000x128 (shapeCast S1x128 b shapeCasts_S1x128_S1x128) broadcasts_S1x128_S5000x128 (ix2 p q)
      = b (ix2 (0 : Fin 1) q) := by
  rw [shapeCast_self]
  exact broadcastTo_1b_ab_apply b broadcasts_S1x128_S5000x128 p q

/-- The first kernel's block at (p, q): the combine of the blocks, rectified. -/
theorem pay0_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q) = rectify (combine x0 x1 x2 x3 x4) (ix2 p q) := by
  unfold k0_pay1
  rw [maximumf_apply, addf_apply, addf_apply, mm_apply, mm_apply, bias_apply, shapeCast_self, shapeCast_self, shapeCast_self]
  rfl

/-- The second kernel's block at (p, q): the combine of the blocks. -/
theorem pay1_apply (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q) = combine x0 x1 x2 x3 x4 (ix2 p q) := by
  unfold k1_pay1
  rw [addf_apply, addf_apply, mm_apply, mm_apply, bias_apply, shapeCast_self, shapeCast_self, shapeCast_self, shapeCast_self]
  rfl

end Cert.KernelIdeal.Body

end
-- ==== Proof.Blocks0.lean ====
/-
  The first kernel's result array, as one function of the arrays the kernel is launched on.

  The grid has 20 points; point t works on rows 5000·t … 5000·t + 4999 of the aggregate and of the node features (and
  the whole of the two weight matrices and of the bias row, at every point) and writes the same rows of the result.
  Entry (y₀, y₁) of what point t writes is the rectified combine of those blocks at (y₀, y₁), which depends only on row y₀ of the
  two row blocks — rows 5000·t + y₀ of the arrays —, column y₁ of the weight matrices and bias entry y₁: it is entry
  (5000·t + y₀, y₁) of the rectified combine of the whole arrays. The 20 blocks of rows cover the 100000 rows (row r is in block
  r / 5000), so the array the kernel leaves is the rectified combine of the arrays it found.
-/
import proofs.«174940_j63934883168987_2_alg».proof.Proof.Gen.KernelIdeal.Frame
import proofs.«174940_j63934883168987_2_alg».proof.Proof.Payload
import Idealize.ShloMosaic.Lib.Pipeline.Value

set_option maxRecDepth 16384

noncomputable section

open scoped BigOperators

namespace Cert.KernelIdeal.Blocks0

open Cert.KernelIdeal Cert.KernelIdeal.Gen Idealize.ShloMosaic Idealize.ShloMosaic.TcCoe Idealize.ShloMosaic.ValueIdx Idealize.SL.Sem
open Idealize.ShloMosaic.Pipeline (Dat)
open Cert.GraphConv

-- the buffer contents the kernel is launched on
variable (V : (c : Dev nD) → (b : Ref sig .tc) → Buf (Elt Ideal) ((c : Thread nD τ).loc b))

theorem offsets_zero : (![0, 0] : Fin 2 → Nat) = fun _ => 0 := funext fun a => by fin_cases a <;> rfl

/-- What the kernel leaves in its result array: the rectified combine of the aggregate array, the node-feature array, the two
    weight matrices and the bias row as the kernel finds them. -/
def whole (c : Dev nD) : S100000x128.Idx → EReal :=
  rectify (combine (V c main_v13) (V c main_arg0) (V c main_v14) (V c main_v15) (V c main_v16))

/-- Entry `y` of a point's block is entry `i` of the whole-array function, as soon as the rows `y 0` of the two row
    blocks are the rows `i 0` of the arrays, the columns `y 1` of the weight blocks are the columns `i 1` of the weight
    matrices and the bias entries agree. -/
theorem block_entry (a h : S100000x128.Idx → EReal) (wr wo : S128x128.Idx → EReal) (b : S1x128.Idx → EReal)
    (x0 x1 : Vec Ideal S5000x128 .f32) (x2 x3 : Vec Ideal S128x128 .f32) (x4 : Vec Ideal S1x128 .f32)
    (y : S5000x128.Idx) (i : S100000x128.Idx)
    (h0 : ∀ k : Fin 128, x0 (ix2 (y 0) k) = a (ix2 (i 0) k))
    (h1 : ∀ k : Fin 128, x1 (ix2 (y 0) k) = h (ix2 (i 0) k))
    (h2 : ∀ k : Fin 128, x2 (ix2 k (y 1)) = wr (ix2 k (i 1)))
    (h3 : ∀ k : Fin 128, x3 (ix2 k (y 1)) = wo (ix2 k (i 1)))
    (h4 : x4 (ix2 (0 : Fin 1) (y 1)) = b (ix2 (0 : Fin 1) (i 1))) :
    k0_pay1 (F := Ideal) x0 x1 x2 x3 x4 y = rectify (combine a h wr wo b) i := by
  have e : k0_pay1 (F := Ideal) x0 x1 x2 x3 x4 y = rectify (combine x0 x1 x2 x3 x4) y := by
    have hy := eq_ix2 y
    rw [hy]
    exact Body.pay0_apply x0 x1 x2 x3 x4 (y 0) (y 1)
  rw [e]
  exact rectify_congr _ _ _ _ (combine_congr a h wr wo b x0 x1 x2 x3 x4 i y h0 h1 h2 h3 h4)

/-- The printed index maps, decided once over the 20 grid points: the two row windows move with the result window along
    the rows, the weight and bias windows stay at block (0, 0), and the result window's block at point t is block t of
    the rows. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the whole-array function. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero offsets_zero]
  simp only [View.ld_unit_zero (S := S5000x128) offsets_zero, View.ld_unit_zero (S := S128x128) offsets_zero,
    View.ld_unit_zero (S := S1x128) offsets_zero]
  obtain ⟨e00, e01, e10, e11, e20, e21, e30, e31, e40, e41, e50, e51⟩ := idx_facts t
  funext j
  have hj0 : (j 0).val < 5000 := (j 0).isLt
  have hj1 : (j 1).val < 128 := (j 1).isLt
  refine block_entry (V c main_v13) (V c main_arg0) (V c main_v14) (V c main_v15) (V c main_v16)
    (iblk0 V c 0 t) (iblk0 V c 1 t) (iblk0 V c 2 t) (iblk0 V c 3 t) (iblk0 V c 4 t) j (((cfg0.win 5).blk t).view.emb j) ?_ ?_ ?_ ?_ ?_
  · intro k
    show V c main_v13 (((cfg0.win 0).blk t).view.emb (ix2 (j 0) k)) = V c main_v13 (ix2 ((((cfg0.win 5).blk t).view.emb j) 0) k)
    refine congrArg (V c main_v13) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · intro k
    show V c main_arg0 (((cfg0.win 1).blk t).view.emb (ix2 (j 0) k)) = V c main_arg0 (ix2 ((((cfg0.win 5).blk t).view.emb j) 0) k)
    refine congrArg (V c main_arg0) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · intro k
    show V c main_v14 (((cfg0.win 2).blk t).view.emb (ix2 k (j 1))) = V c main_v14 (ix2 k ((((cfg0.win 5).blk t).view.emb j) 1))
    refine congrArg (V c main_v14) (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  · intro k
    show V c main_v15 (((cfg0.win 3).blk t).view.emb (ix2 k (j 1))) = V c main_v15 (ix2 k ((((cfg0.win 5).blk t).view.emb j) 1))
    refine congrArg (V c main_v15) (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  · show V c main_v16 (((cfg0.win 4).blk t).view.emb (ix2 (0 : Fin 1) (j 1))) = V c main_v16 (ix2 (0 : Fin 1) ((((cfg0.win 5).blk t).view.emb j) 1))
    refine congrArg (V c main_v16) (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v17).slice (win0_5.rect t)).set ↔ _
  rw [View.set_slice_whole, Rect.mem_set_unit]
  exact Iff.rfl

/-- Every index of the result array is in some point's block: row r is in the block of point r / 5000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  refine ⟨⟨(i 0).val / 5000, ht⟩, flush0_5 _, ?_⟩
  rw [mem_blk]
  obtain ⟨-, -, -, -, -, -, -, -, -, -, e50, e51⟩ := idx_facts ⟨(i 0).val / 5000, ht⟩
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e51]; omega

/-- The result array after the kernel: the whole-array function of the arrays the kernel found. -/
theorem final (c : Dev nD) : (dat0 V c).arrAt 5 cfg0.N = whole V c :=
  (dat0 V c).arrAt_eq_of_cover 5 (whole V c) (fun t _ => flushed_eq V c t) cover

end Cert.KernelIdeal.Blocks0

end
-- ==== Proof.Blocks1.lean ====
/-
  The second kernel's result array, as one function of the arrays the kernel is launched on.

  The grid has 20 points; point t works on rows 5000·t … 5000·t + 4999 of the aggregate and of the node features (and
  the whole of the two weight matrices and of the bias row, at every point) and writes the same rows of the result.
  Entry (y₀, y₁) of what point t writes is the combine of those blocks at (y₀, y₁), which depends only on row y₀ of the
  two row blocks — rows 5000·t + y₀ of the arrays —, column y₁ of the weight matrices and bias entry y₁: it is entry
  (5000·t + y₀, y₁) of the combine of the whole arrays. The 20 blocks of rows cover the 100000 rows (row r is in block
  r / 5000), so the array the kernel leaves is the combine of the arrays it found.
-/
import proofs.«174940_j63934883168987_2_alg».proof.Proof.Gen.KernelIdeal.Frame
import proofs.«174940_j63934883168987_2_alg».proof.Proof.Payload
import Idealize.ShloMosaic.Lib.Pipeline.Value

set_option maxRecDepth 16384

noncomputable section

open scoped BigOperators

namespace Cert.KernelIdeal.Blocks1

open Cert.KernelIdeal Cert.KernelIdeal.Gen Idealize.ShloMosaic Idealize.ShloMosaic.TcCoe Idealize.ShloMosaic.ValueIdx Idealize.SL.Sem
open Idealize.ShloMosaic.Pipeline (Dat)
open Cert.GraphConv

-- the buffer contents the kernel is launched on
variable (V : (c : Dev nD) → (b : Ref sig .tc) → Buf (Elt Ideal) ((c : Thread nD τ).loc b))

theorem offsets_zero : (![0, 0] : Fin 2 → Nat) = fun _ => 0 := funext fun a => by fin_cases a <;> rfl

/-- What the kernel leaves in its result array: the combine of the aggregate array, the node-feature array, the two
    weight matrices and the bias row as the kernel finds them. -/
def whole (c : Dev nD) : S100000x128.Idx → EReal :=
  combine (V c main_v27) (V c main_v17) (V c main_v28) (V c main_v29) (V c main_v30)

/-- Entry `y` of a point's block is entry `i` of the whole-array function, as soon as the rows `y 0` of the two row
    blocks are the rows `i 0` of the arrays, the columns `y 1` of the weight blocks are the columns `i 1` of the weight
    matrices and the bias entries agree. -/
theorem block_entry (a h : S100000x128.Idx → EReal) (wr wo : S128x128.Idx → EReal) (b : S1x128.Idx → EReal)
    (x0 x1 : Vec Ideal S5000x128 .f32) (x2 x3 : Vec Ideal S128x128 .f32) (x4 : Vec Ideal S1x128 .f32)
    (y : S5000x128.Idx) (i : S100000x128.Idx)
    (h0 : ∀ k : Fin 128, x0 (ix2 (y 0) k) = a (ix2 (i 0) k))
    (h1 : ∀ k : Fin 128, x1 (ix2 (y 0) k) = h (ix2 (i 0) k))
    (h2 : ∀ k : Fin 128, x2 (ix2 k (y 1)) = wr (ix2 k (i 1)))
    (h3 : ∀ k : Fin 128, x3 (ix2 k (y 1)) = wo (ix2 k (i 1)))
    (h4 : x4 (ix2 (0 : Fin 1) (y 1)) = b (ix2 (0 : Fin 1) (i 1))) :
    k1_pay1 (F := Ideal) x0 x1 x2 x3 x4 y = combine a h wr wo b i := by
  have e : k1_pay1 (F := Ideal) x0 x1 x2 x3 x4 y = combine x0 x1 x2 x3 x4 y := by
    have hy := eq_ix2 y
    rw [hy]
    exact Body.pay1_apply x0 x1 x2 x3 x4 (y 0) (y 1)
  rw [e]
  exact combine_congr a h wr wo b x0 x1 x2 x3 x4 i y h0 h1 h2 h3 h4

/-- The printed index maps, decided once over the 20 grid points: the two row windows move with the result window along
    the rows, the weight and bias windows stay at block (0, 0), and the result window's block at point t is block t of
    the rows. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the whole-array function. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero offsets_zero]
  simp only [View.ld_unit_zero (S := S5000x128) offsets_zero, View.ld_unit_zero (S := S128x128) offsets_zero,
    View.ld_unit_zero (S := S1x128) offsets_zero]
  obtain ⟨e00, e01, e10, e11, e20, e21, e30, e31, e40, e41, e50, e51⟩ := idx_facts t
  funext j
  have hj0 : (j 0).val < 5000 := (j 0).isLt
  have hj1 : (j 1).val < 128 := (j 1).isLt
  refine block_entry (V c main_v27) (V c main_v17) (V c main_v28) (V c main_v29) (V c main_v30)
    (iblk1 V c 0 t) (iblk1 V c 1 t) (iblk1 V c 2 t) (iblk1 V c 3 t) (iblk1 V c 4 t) j (((cfg1.win 5).blk t).view.emb j) ?_ ?_ ?_ ?_ ?_
  · intro k
    show V c main_v27 (((cfg1.win 0).blk t).view.emb (ix2 (j 0) k)) = V c main_v27 (ix2 ((((cfg1.win 5).blk t).view.emb j) 0) k)
    refine congrArg (V c main_v27) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · intro k
    show V c main_v17 (((cfg1.win 1).blk t).view.emb (ix2 (j 0) k)) = V c main_v17 (ix2 ((((cfg1.win 5).blk t).view.emb j) 0) k)
    refine congrArg (V c main_v17) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · intro k
    show V c main_v28 (((cfg1.win 2).blk t).view.emb (ix2 k (j 1))) = V c main_v28 (ix2 k ((((cfg1.win 5).blk t).view.emb j) 1))
    refine congrArg (V c main_v28) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  · intro k
    show V c main_v29 (((cfg1.win 3).blk t).view.emb (ix2 k (j 1))) = V c main_v29 (ix2 k ((((cfg1.win 5).blk t).view.emb j) 1))
    refine congrArg (V c main_v29) (funext fun a => Fin.ext ?_)
    match a with
    | ⟨0, _⟩ => show win1_3.index t (0 : Fin 2) * 128 + 1 * k.val = k.val; omega
    | ⟨1, _⟩ => show win1_3.index t (1 : Fin 2) * 128 + 1 * (j 1).val = win1_5.index t (1 : Fin 2) * 128 + 1 * (j 1).val; omega
  · show V c main_v30 (((cfg1.win 4).blk t).view.emb (ix2 (0 : Fin 1) (j 1))) = V c main_v30 (ix2 (0 : Fin 1) ((((cfg1.win 5).blk t).view.emb j) 1))
    refine congrArg (V c main_v30) (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega

/-- An index of the result array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v31).slice (win1_5.rect t)).set ↔ _
  rw [View.set_slice_whole, Rect.mem_set_unit]
  exact Iff.rfl

/-- Every index of the result array is in some point's block: row r is in the block of point r / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  refine ⟨⟨(i 0).val / 5000, ht⟩, flush1_5 _, ?_⟩
  rw [mem_blk]
  obtain ⟨-, -, -, -, -, -, -, -, -, -, e50, e51⟩ := idx_facts ⟨(i 0).val / 5000, ht⟩
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e51]; omega

/-- The result array after the kernel: the whole-array function of the arrays the kernel found. -/
theorem final (c : Dev nD) : (dat1 V c).arrAt 5 cfg1.N = whole V c :=
  (dat1 V c).arrAt_eq_of_cover 5 (whole V c) (fun t _ => flushed_eq V c t) cover

end Cert.KernelIdeal.Blocks1

end
-- ==== Proof.Aggregate.lean ====
/-
  The neighbour aggregate, and the two-layer network as one function of the argument arrays.

  The edge list is a 2 × 1600000 array of 32-bit integers: row 0 holds every edge's source node, row 1 its target.
  A source number below zero is first moved up by 100000 (the number of nodes). The aggregate of a node-feature
  matrix `h` is then built in two steps, both by operations whose result depends on the VALUES of the edge list: a
  gather that makes the 1600000 × 128 matrix whose row e is row source(e) of `h`, and a scatter-add that starts from
  the 100000 × 128 zero matrix and adds row e of the gathered matrix into row target(e). Both programs of this
  certificate build the aggregate with these same operations on the same operands, so the aggregate is kept as ONE
  named function and never opened: whatever a gather or a scatter-add does with an index out of range, it does the
  same on both sides.

  On top of it: the hidden layer is the rectified combine of the aggregate of the input features with the input
  features themselves (weights transposed, bias as a row), and the output is the combine of the aggregate of the hidden
  layer with the hidden layer.
-/
import proofs.«174940_j63934883168987_2_alg».proof.Proof.Gen.KernelIdeal
import proofs.«174940_j63934883168987_2_alg».proof.Proof.LibGraphConv
import Idealize.ShloMosaic.PureOps.Ideal

noncomputable section

namespace Cert.KernelIdeal.Net

open Cert.KernelIdeal Cert.KernelIdeal.Gen Idealize.ShloMosaic Cert.GraphConv

/-- Row `r` of the edge list as a vector of 1600000 node numbers. -/
def edgeRow0 (ei : IVec S2x1600000 32) : IVec S1600000 32 :=
  shapeCast S1600000 (extractStridedSlice S1x1600000 ![0, 0] ei slices_S2x1600000_S1x1600000_0_0) shapeCasts_S1x1600000_S1600000
def edgeRow1 (ei : IVec S2x1600000 32) : IVec S1600000 32 :=
  shapeCast S1600000 (extractStridedSlice S1x1600000 ![1, 0] ei slices_S2x1600000_S1x1600000_1_0) shapeCasts_S1x1600000_S1600000

/-- The source column the gather reads: a source number below zero moved up by the number of nodes. -/
def sources (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The target column the scatter-add reads. -/
def targets (dst : IVec S1600000 32) : IVec S1600000x1 32 :=
  broadcastInDim S1600000x1 ![0] bcast_S1600000_S1600000x1_0 dst

/-- The aggregate of the node-feature matrix `h` along the edges with source numbers `src` and target numbers `dst`:
    the rows of `h` at the sources, added into the zero matrix at the targets. -/
def aggregateOf (h : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (targets dst) (Host.gather gather_S100000x128_S1600000x1_S1600000x128_1_0_n_n_0_1_1128 h (sources src))

/-- The aggregate along the edge list `ei`. -/
def aggregate (h : FVec Ideal S100000x128 .f32) (ei : IVec S2x1600000 32) : FVec Ideal S100000x128 .f32 :=
  aggregateOf h (edgeRow0 ei) (edgeRow1 ei)

/-- A weight matrix as the combine takes it: transposed. -/
def weightT (w : FVec Ideal S128x128 .f32) : FVec Ideal S128x128 .f32 :=
  transpose S128x128 [1, 0] w transposes_S128x128_S128x128_1_0

/-- A bias vector as the combine takes it: a 1 × 128 row. -/
def biasRow (b : FVec Ideal S128 .f32) : FVec Ideal S1x128 .f32 :=
  shapeCast S1x128 b shapeCasts_S128_S1x128

/-- The hidden layer: the rectified combine of the aggregate of `x` with `x`. -/
def hidden (x : FVec Ideal S100000x128 .f32) (ei : IVec S2x1600000 32) (w1r w1o : FVec Ideal S128x128 .f32)
    (b1 : FVec Ideal S128 .f32) : FVec Ideal S100000x128 .f32 :=
  rectify (combine (aggregate x ei) x (weightT w1r) (weightT w1o) (biasRow b1))

/-- The network's output: the combine of the aggregate of the hidden layer with the hidden layer. -/
def output (x : FVec Ideal S100000x128 .f32) (ei : IVec S2x1600000 32) (w1r w1o : FVec Ideal S128x128 .f32)
    (b1 : FVec Ideal S128 .f32) (w2r w2o : FVec Ideal S128x128 .f32) (b2 : FVec Ideal S128 .f32) :
    FVec Ideal S100000x128 .f32 :=
  combine (aggregate (hidden x ei w1r w1o b1) ei) (hidden x ei w1r w1o b1) (weightT w2r) (weightT w2o) (biasRow b2)

end Cert.KernelIdeal.Net

end
-- ==== Proof.KernelValue.lean ====
/-
  What the idealized kernel program leaves in its result buffer, as a function of the launch memory.

  Followed boundary by boundary. When the first kernel is entered, the host operations before it have written the
  aggregate of the input features, the two transposed first-layer weight matrices and the first bias as a row; the
  features themselves are as launched. The first kernel's result array is the rectified combine of those: the hidden
  layer. The host operations between the kernels read the edge rows the first stretch made (untouched by the first
  kernel) and the hidden layer, and write the aggregate of the hidden layer, the transposed second-layer weights and
  the second bias row. The second kernel's result array is the combine of those: the network's output.
-/
import proofs.«174940_j63934883168987_2_alg».proof.Proof.Gen.KernelIdeal.Frame
import proofs.«174940_j63934883168987_2_alg».proof.Proof.Blocks0
import proofs.«174940_j63934883168987_2_alg».proof.Proof.Blocks1
import proofs.«174940_j63934883168987_2_alg».proof.Proof.Aggregate
import Idealize.ShloMosaic.Lib.StableHlo.Run

set_option maxRecDepth 16384

noncomputable section

namespace Cert.KernelIdeal.Whole

open Cert.KernelIdeal Cert.KernelIdeal.Gen Cert.KernelIdeal.Net
open Idealize.ShloMosaic Idealize.ShloMosaic.TcCoe Idealize.SL.Sem Idealize.ShloMosaic.StableHlo
open Cert.GraphConv

variable (m : (ℓ : Loc nD τ sig) → Buf (Elt Ideal) ℓ) (ρ : Dev nD → PrngReg)

/-! ## What the first kernel is entered with -/

theorem entry0_agg (c : Dev nD) : V1 m ρ c main_v13 = aggregate (m ((c : Thread nD τ).loc main_arg0)) (m ((c : Thread nD τ).loc main_arg1)) := by
  show StableHlo.after hostOps0 (W0 m ρ c) (Proc.devRef .tc main_v13) = _
  after_results
  rfl
theorem entry0_x (c : Dev nD) : V1 m ρ c main_arg0 = (m ((c : Thread nD τ).loc main_arg0)) := by
  show StableHlo.after hostOps0 (W0 m ρ c) (Proc.devRef .tc main_arg0) = _
  after_results
theorem entry0_wr (c : Dev nD) : V1 m ρ c main_v14 = weightT (m ((c : Thread nD τ).loc main_arg2)) := by
  show StableHlo.after hostOps0 (W0 m ρ c) (Proc.devRef .tc main_v14) = _
  after_results
  rfl
theorem entry0_wo (c : Dev nD) : V1 m ρ c main_v15 = weightT (m ((c : Thread nD τ).loc main_arg3)) := by
  show StableHlo.after hostOps0 (W0 m ρ c) (Proc.devRef .tc main_v15) = _
  after_results
  rfl
theorem entry0_b (c : Dev nD) : V1 m ρ c main_v16 = biasRow (m ((c : Thread nD τ).loc main_arg4)) := by
  show StableHlo.after hostOps0 (W0 m ρ c) (Proc.devRef .tc main_v16) = _
  after_results
  rfl

/-! ## What it leaves -/

/-- After the first kernel its result buffer holds the hidden layer. -/
theorem hidden_eq (c : Dev nD) : W2 m ρ c (Proc.devRef .tc main_v17) = (hidden (m ((c : Thread nD τ).loc main_arg0)) (m ((c : Thread nD τ).loc main_arg1)) (m ((c : Thread nD τ).loc main_arg2)) (m ((c : Thread nD τ).loc main_arg3)) (m ((c : Thread nD τ).loc main_arg4))) := by
  refine (W2_arr m ρ c 5).trans ?_
  rw [Blocks0.final]
  unfold Blocks0.whole Net.hidden
  rw [entry0_agg, entry0_x, entry0_wr, entry0_wo, entry0_b]

/-- The first kernel writes none of the edge rows and none of the second layer's arguments: after it they are what the
    first stretch of host operations, or the launch, left. -/
theorem kept_src (c : Dev nD) : W2 m ρ c (Proc.devRef .tc main_v1) = edgeRow0 (m ((c : Thread nD τ).loc main_arg1)) :=
  (W2_of_ne m ρ c main_v1 (by decide)).trans (by
    show StableHlo.after hostOps0 (W0 m ρ c) (Proc.devRef .tc main_v1) = _
    after_results
    rfl)
theorem kept_dst (c : Dev nD) : W2 m ρ c (Proc.devRef .tc main_v3) = edgeRow1 (m ((c : Thread nD τ).loc main_arg1)) :=
  (W2_of_ne m ρ c main_v3 (by decide)).trans (by
    show StableHlo.after hostOps0 (W0 m ρ c) (Proc.devRef .tc main_v3) = _
    after_results
    rfl)
theorem kept_w2r (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results)
theorem kept_w2o (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results)
theorem kept_b2 (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results)

/-! ## What the second kernel is entered with -/

theorem entry1_agg (c : Dev nD) : V3 m ρ c main_v27 = aggregate (hidden (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  show StableHlo.after hostOps1 (W2 m ρ c) (Proc.devRef .tc main_v27) = _
  after_results
  rw [hidden_eq, kept_src, kept_dst]
  rfl
theorem entry1_h (c : Dev nD) : V3 m ρ c main_v17 = (hidden (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps1 (W2 m ρ c) (Proc.devRef .tc main_v17) = _
  after_results
  exact hidden_eq m ρ c
theorem entry1_wr (c : Dev nD) : V3 m ρ c main_v28 = weightT (m ((c : Thread nD τ).loc main_arg5)) := by
  show StableHlo.after hostOps1 (W2 m ρ c) (Proc.devRef .tc main_v28) = _
  after_results
  rw [kept_w2r]
  rfl
theorem entry1_wo (c : Dev nD) : V3 m ρ c main_v29 = weightT (m ((c : Thread nD τ).loc main_arg6)) := by
  show StableHlo.after hostOps1 (W2 m ρ c) (Proc.devRef .tc main_v29) = _
  after_results
  rw [kept_w2o]
  rfl
theorem entry1_b (c : Dev nD) : V3 m ρ c main_v30 = biasRow (m ((c : Thread nD τ).loc main_arg7)) := by
  show StableHlo.after hostOps1 (W2 m ρ c) (Proc.devRef .tc main_v30) = _
  after_results
  rw [kept_b2]
  rfl

/-! ## What it leaves -/

/-- After the second kernel its result buffer holds the network's output. -/
theorem output_eq (c : Dev nD) : W4 m ρ c (Proc.devRef .tc main_v31)
    = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ?_
  rw [Blocks1.final]
  unfold Blocks1.whole Net.output
  rw [entry1_agg, entry1_h, entry1_wr, entry1_wo, entry1_b]

end Cert.KernelIdeal.Whole

end
-- ==== Proof.RefValue.lean ====
/-
  What the idealized reference computes, as the same function of the arguments as the kernel program.

  The reference builds the aggregate with the same gather and scatter-add, on the same operands, as the kernel
  program, so its aggregate IS the named one. Each layer is then one whole-array computation: two plain matrix
  products against transposed weights (entry (p, q) is the sum over k of the left operand at (p, k) times the weight
  at (q, k)), their sum, the bias spread over the rows, and for the first layer the maximum with zero. Read at an
  entry, that is the combine (rectified for the first layer) of the aggregate and the layer's input — the very
  expression, in the same order of additions, that the kernel program's blocks compute.
-/
import proofs.«174940_j63934883168987_2_alg».proof.Proof.Gen.ReferenceIdeal.Read
import proofs.«174940_j63934883168987_2_alg».proof.Proof.Aggregate
import proofs.«174940_j63934883168987_2_alg».proof.Proof.LibGraphConv
import Idealize.ShloMosaic.Lib.ValueIdx
import Idealize.ShloMosaic.Lib.ValueLayout

noncomputable section

open scoped BigOperators

namespace Cert.ReferenceIdeal.Whole

open Cert.ReferenceIdeal Cert.ReferenceIdeal.Gen Cert.ReferenceIdeal.Read
open Idealize.ShloMosaic Idealize.ShloMosaic.ValueIdx Idealize.ShloMosaic.TcCoe Idealize.SL.Sem
open Cert.GraphConv
open Cert.KernelIdeal.Net (aggregate hidden output weightT biasRow)

/-! ## The operand entries the four matrix products and the two bias spreads read -/

theorem lidx15 (p : Fin 100000) (q k : Fin 128) : lidx_main_v15 (ix2 p q) k = ix2 p k :=
  funext fun a => Fin.ext (by match a with | ⟨0, _⟩ => rfl | ⟨1, _⟩ => rfl)
theorem ridx15 (p : Fin 100000) (q k : Fin 128) : ridx_main_v15 (ix2 p q) k = ix2 k q :=
  funext fun a => Fin.ext (by match a with | ⟨0, _⟩ => rfl | ⟨1, _⟩ => rfl)
theorem lidx17 (p : Fin 100000) (q k : Fin 128) : lidx_main_v17 (ix2 p q) k = ix2 p k :=
  funext fun a => Fin.ext (by match a with | ⟨0, _⟩ => rfl | ⟨1, _⟩ => rfl)
theorem ridx17 (p : Fin 100000) (q k : Fin 128) : ridx_main_v17 (ix2 p q) k = ix2 k q :=
  funext fun a => Fin.ext (by match a with | ⟨0, _⟩ => rfl | ⟨1, _⟩ => rfl)
theorem lidx34 (p : Fin 100000) (q k : Fin 128) : lidx_main_v34 (ix2 p q) k = ix2 p k :=
  funext fun a => Fin.ext (by match a with | ⟨0, _⟩ => rfl | ⟨1, _⟩ => rfl)
theorem ridx34 (p : Fin 100000) (q k : Fin 128) : ridx_main_v34 (ix2 p q) k = ix2 k q :=
  funext fun a => Fin.ext (by match a with | ⟨0, _⟩ => rfl | ⟨1, _⟩ => rfl)
theorem lidx36 (p : Fin 100000) (q k : Fin 128) : lidx_main_v36 (ix2 p q) k = ix2 p k :=
  funext fun a => Fin.ext (by match a with | ⟨0, _⟩ => rfl | ⟨1, _⟩ => rfl)
theorem ridx36 (p : Fin 100000) (q k : Fin 128) : ridx_main_v36 (ix2 p q) k = ix2 k q :=
  funext fun a => Fin.ext (by match a with | ⟨0, _⟩ => rfl | ⟨1, _⟩ => rfl)
theorem bidx1 (p : Fin 100000) (q : Fin 128) : idx_main_v19 (idx_main_v20 (ix2 p q)) = ix1 q :=
  funext fun a => Fin.ext (by match a with | ⟨0, _⟩ => rfl)
theorem bidx2 (p : Fin 100000) (q : Fin 128) : idx_main_v38 (idx_main_v39 (ix2 p q)) = ix1 q :=
  funext fun a => Fin.ext (by match a with | ⟨0, _⟩ => rfl)

/-- A bias vector as a row reads, at (0, q), the vector's entry q. -/
theorem biasRow_apply (b : FVec Ideal S128 .f32) (q : Fin 128) : biasRow b (ix2 (0 : Fin 1) q) = b (ix1 q) :=
  shapeCast_a_1a_apply b Cert.KernelIdeal.Gen.shapeCasts_S128_S1x128 (0 : Fin 1) q

/-! ## The two layers -/

/-- The reference's first aggregate is the named aggregate of the input features. -/
theorem agg1_eq (x0 : FVec Ideal S100000x128 .f32) (x1 : IVec S2x1600000 32) :
    val_main_v13 (F := Ideal) x0 x1 = aggregate x0 x1 := rfl

/-- The reference's first layer is the hidden layer. -/
theorem hidden_eq (x0 : FVec Ideal S100000x128 .f32) (x1 : IVec S2x1600000 32) (x2 x3 : FVec Ideal S128x128 .f32)
    (x4 : FVec Ideal S128 .f32) : val_main_v22 (F := Ideal) x0 x1 x2 x3 x4 = hidden x0 x1 x2 x3 x4 := by
  funext i
  obtain ⟨p, q, rfl⟩ : ∃ (p : Fin 100000) (q : Fin 128), i = ix2 p q := ⟨i 0, i 1, eq_ix2 i⟩
  rw [val_main_v22_apply, val_main_v21_apply, val_main_v18_apply, val_main_v15_apply, val_main_v17_apply,
    val_main_v20_apply, val_main_v19_apply, val_main_call0_v0_apply, val_main_call0_cst_apply]
  simp only [lidx15, ridx15, lidx17, ridx17, bidx1]
  rw [show hidden x0 x1 x2 x3 x4 (ix2 p q)
      = max (((∑ k : Fin 128, aggregate x0 x1 (ix2 p k) * weightT x2 (ix2 k q))
          + ∑ k : Fin 128, x0 (ix2 p k) * weightT x3 (ix2 k q)) + biasRow x4 (ix2 (0 : Fin 1) q))
        (Ideal.ofBits .f32 0x00000000#32) from rfl, biasRow_apply]
  rfl

/-- The reference's second aggregate is the named aggregate of its first layer. -/
theorem agg2_eq (x0 : FVec Ideal S100000x128 .f32) (x1 : IVec S2x1600000 32) (x2 x3 : FVec Ideal S128x128 .f32)
    (x4 : FVec Ideal S128 .f32) :
    val_main_v32 (F := Ideal) x0 x1 x2 x3 x4 = aggregate (val_main_v22 (F := Ideal) x0 x1 x2 x3 x4) x1 := rfl

/-- The reference's result is the network's output. -/
theorem output_eq (x0 : FVec Ideal S100000x128 .f32) (x1 : IVec S2x1600000 32) (x2 x3 : FVec Ideal S128x128 .f32)
    (x4 : FVec Ideal S128 .f32) (x5 x6 : FVec Ideal S128x128 .f32) (x7 : FVec Ideal S128 .f32) :
    val_main_v40 (F := Ideal) x0 x1 x2 x3 x4 x5 x6 x7 = output x0 x1 x2 x3 x4 x5 x6 x7 := by
  funext i
  obtain ⟨p, q, rfl⟩ : ∃ (p : Fin 100000) (q : Fin 128), i = ix2 p q := ⟨i 0, i 1, eq_ix2 i⟩
  rw [val_main_v40_apply, val_main_v37_apply, val_main_v34_apply, val_main_v36_apply, val_main_v39_apply,
    val_main_v38_apply, agg2_eq, hidden_eq]
  simp only [lidx34, ridx34, lidx36, ridx36, bidx2]
  rw [show output x0 x1 x2 x3 x4 x5 x6 x7 (ix2 p q)
      = ((∑ k : Fin 128, aggregate (hidden x0 x1 x2 x3 x4) x1 (ix2 p k) * weightT x5 (ix2 k q))
          + ∑ k : Fin 128, hidden x0 x1 x2 x3 x4 (ix2 p k) * weightT x6 (ix2 k q)) + biasRow x7 (ix2 (0 : Fin 1) q)
      from rfl, biasRow_apply]
  rfl

/-- The reference run's result term is the network's output of the launch memory's arguments. -/
theorem result_eq (m : (ℓ : Loc nD τ sig) → Buf (Elt Ideal) ℓ) (c : Dev nD) :
    Cert.ReferenceIdeal.Value.res_main_v40 m c
      = output (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  (val_main_v40_eq m c).trans (output_eq _ _ _ _ _ _ _ _)

end Cert.ReferenceIdeal.Whole

end
-- ==== Proof.lean ====
/-
  A two-layer graph convolution over 100000 nodes with 128 features and 1600000 edges: the kernel program against
  its plain reference, equal on the extended reals.

  Each layer sums, for every node, the feature rows of its in-neighbours (a gather of rows by source node followed by
  a scatter-add by target node, done by host operations in both programs) and then combines that aggregate `a` with
  the layer's input `h`: `a · W_relᵀ + h · W_rootᵀ + b`, followed in the first layer by the maximum with zero.

  The kernel program runs the combine as a kernel over 20 blocks of 5000 rows, with the matrices narrowed to a 16-bit
  format before the two block products; the reference runs it as two whole matrix products. On the extended reals
  the narrowing is the identity and a block product from a zero accumulator is the same sum as the whole product's,
  so entry (p, q) of either program's layer is
  `(∑ₖ a (p, k) · W_rel (q, k) + ∑ₖ h (p, k) · W_root (q, k)) + b q` — the same products, added in the same order. The
  aggregate is built by the same operations on the same operands in both programs and is carried as one named
  function. No law of arithmetic beyond this reading is needed, so finiteness of the inputs is never used.

  The three frames are the generated ones (the reference's is its generated run with the result dropped); the kernel
  program is its own idealization (no rewrite was applied), so that conjunct is trivial.
-/
import proofs.«174940_j63934883168987_2_alg».proof.Defs
import proofs.«174940_j63934883168987_2_alg».proof.Proof.Gen.Kernel
import proofs.«174940_j63934883168987_2_alg».proof.Proof.Gen.Kernel.Frame
import proofs.«174940_j63934883168987_2_alg».proof.Proof.Gen.KernelIdeal
import proofs.«174940_j63934883168987_2_alg».proof.Proof.Gen.KernelIdeal.Frame
import proofs.«174940_j63934883168987_2_alg».proof.Proof.Gen.ReferenceIdeal
import proofs.«174940_j63934883168987_2_alg».proof.Proof.Gen.ReferenceIdeal.Run
import proofs.«174940_j63934883168987_2_alg».proof.Proof.Gen.ReferenceIdeal.Read
import proofs.«174940_j63934883168987_2_alg».proof.Proof.Gen.Pre_finite_inputs
import proofs.«174940_j63934883168987_2_alg».proof.Proof.KernelRun
import proofs.«174940_j63934883168987_2_alg».proof.Proof.KernelValue
import proofs.«174940_j63934883168987_2_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the network's output of those arguments
    in their result buffers: the kernel program by its run and the value of its last boundary, the reference by its
    run and the reading of its result term. -/
theorem algebraic : Cert.algebraic_KernelIdeal_ReferenceIdeal := by
  intro m ρ m' ρ' _ hagree
  refine ⟨fun c => Cert.KernelIdeal.Net.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.output_eq m ρ c), (h c).2⟩)
      (Cert.KernelIdeal.Whole.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.Whole.result_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
